-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S_ : Shape := ⟨0, ![]⟩
abbrev S262144 : Shape := ⟨1, ![262144]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  reducesTo_S262144x256_S262144_d1 : S262144x256.ReducesTo [1] S262144
  bcast_S_S262144 : S_.BroadcastsInDim S262144 (![] : Fin 0 → Fin S262144.rank)
  reducesTo_S262144_S_d0 : S262144.ReducesTo [0] S_

variable [Facts]

def fn_part1 {F : FTy → Type} [FloatOps F] (main_v14 : IVec S_ 1) (main_v15 : FVec F S262144x256 .f32) (main_cst_5 : FVec F S_ .f32) : IVec S_ 1 :=
  let main_v16 : FVec F S262144 .f32 := (fun x v => Host.reduceAdd x v reducesTo_S262144x256_S262144_d1 h_S_) main_v15 main_cst_5
  let main_cst_6 : FVec F S_ .f32 := constant S_ .f32 0x00000000#32
  let main_v17 : FVec F S262144 .f32 := broadcastInDim S262144 ![] bcast_S_S262144 main_cst_6
  let main_v18 : IVec S262144 1 := cmpf .ogt main_v16 main_v17
  let main_c_7 : IVec S_ 1 := constantI S_ 1 1#1
  let main_v19 : IVec S_ 1 := (fun x v => Host.reduce IntOp.andi x v reducesTo_S262144_S_d0 h_S_) main_v18 main_c_7
  let main_v20 : IVec S_ 1 := andi main_v14 main_v19
  main_v20

def fn {F : FTy → Type} [FloatOps F] (main_arg0 : FVec F S262144x256 .f32) (main_arg1 : FVec F S262144x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S262144x256 .f32 := mulf main_arg0 main_arg0
  let main_cst_2 : FVec F S_ .f32 := constant S_ .f32 0x00000000#32
  let main_v10 : FVec F S262144 .f32 := (fun x v => Host.reduceAdd x v reducesTo_S262144x256_S262144_d1 h_S_) main_v9 main_cst_2
  let main_cst_3 : FVec F S_ .f32 := constant S_ .f32 0x00000000#32
  let main_v11 : FVec F S262144 .f32 := broadcastInDim S262144 ![] bcast_S_S262144 main_cst_3
  let main_v12 : IVec S262144 1 := cmpf .ogt main_v10 main_v11
  let main_c_4 : IVec S_ 1 := constantI S_ 1 1#1
  let main_v13 : IVec S_ 1 := (fun x v => Host.reduce IntOp.andi x v reducesTo_S262144_S_d0 h_S_) main_v12 main_c_4
  let main_v14 : IVec S_ 1 := andi main_v8 main_v13
  let main_v15 : FVec F S262144x256 .f32 := mulf main_arg1 main_arg1
  let main_cst_5 : FVec F S_ .f32 := constant S_ .f32 0x00000000#32
  fn_part1 (F := F) main_v14 main_v15 main_cst_5
-- ==== Kernel.lean ====
abbrev S262144x256 : Shape := ⟨2, ![262144, 256]⟩
abbrev S2048x128 : Shape := ⟨2, ![2048, 128]⟩
abbrev S4096x256 : Shape := ⟨2, ![4096, 256]⟩
abbrev S32x128 : Shape := ⟨2, ![32, 128]⟩
abbrev S4096 : Shape := ⟨1, ![4096]⟩
abbrev S4096x1 : Shape := ⟨2, ![4096, 1]⟩
abbrev S262144x1 : Shape := ⟨2, ![262144, 1]⟩

abbrev nBuf : Space → Nat
  | .hbm => 4
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S2048x128, .f32⟩
  | .hbm, ⟨3, _⟩ => ⟨S262144x1, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S32x128, .f32⟩
  | .local _ .vmem, ⟨5, _⟩ => ⟨S32x128, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  shapeCasts_S4096x1_S32x128 : S4096x1.ShapeCasts S32x128
  inb_S32x128_S32x128_0_0 : ∀ a, (![0, 0] : Fin 2 → Nat) a + S32x128.size a ≤ S32x128.size a
  h_S32x128 : 0 < S32x128.numel
  shapeCasts_S2048x128_S262144x1 : S2048x128.ShapeCasts S262144x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S262144x256.size a
  hwx0_1 : ∀ i : grid0.Coords, EltTy.bits .f32 = 32 ∨ (Rect.block (s := S262144x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S2048x128.size a
  hwx0_2 : ∀ i : grid0.Coords, EltTy.bits .f32 = 32 ∨ (Rect.block (s := S2048x128) S32x128.size (cc0_transform_2 i) (hinb0_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x256 : Shape := ⟨2, ![262144, 256]⟩
abbrev S_ : Shape := ⟨0, ![]⟩
abbrev S262144 : Shape := ⟨1, ![262144]⟩
abbrev S262144x1 : Shape := ⟨2, ![262144, 1]⟩

abbrev nBuf : Space → Nat
  | .hbm => 20
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144x256, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S262144x1, .f32⟩
  | .hbm, ⟨7, _⟩ => ⟨S262144x256, .f32⟩
  | .hbm, ⟨8, _⟩ => ⟨S_, .f32⟩
  | .hbm, ⟨9, _⟩ => ⟨S262144, .f32⟩
  | .hbm, ⟨10, _⟩ => ⟨S262144x1, .f32⟩
  | .hbm, ⟨11, _⟩ => ⟨S262144x1, .f32⟩
  | .hbm, ⟨12, _⟩ => ⟨S262144x256, .f32⟩
  | .hbm, ⟨13, _⟩ => ⟨S262144x256, .f32⟩
  | .hbm, ⟨14, _⟩ => ⟨S262144x256, .f32⟩
  | .hbm, ⟨15, _⟩ => ⟨S262144x256, .f32⟩
  | .hbm, ⟨16, _⟩ => ⟨S262144x256, .f32⟩
  | .hbm, ⟨17, _⟩ => ⟨S_, .f32⟩
  | .hbm, ⟨18, _⟩ => ⟨S262144, .f32⟩
  | .hbm, ⟨19, _⟩ => ⟨S262144x1, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_call1_v2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)

variable [Facts₀]

class Facts : Prop extends Facts₀ where

variable [Facts]
-- ==== Proof.PreRows.lean ====
/-
  The precondition, read back at the ideal values.

  The printed predicate is the conjunction of four `all`s: `|x| < +∞` at every entry of either input, and
  `0 < ∑ₖ x (r, k) * x (r, k)` at every row `r` of either input. A conjunction of bits that is one has every
  conjunct one; a reduction by `and` that is one met only ones; a comparison of extended reals that is one is the
  order relation. So, of inputs on which the predicate holds: every entry is a real number (neither infinity), and
  every row has a positive sum of squares.
-/
import proofs.«106091_j26946624815703_2_alg».proof.Pre_finite_inputs
import Idealize.ShloMosaic.Lib.ReduceAll
import Idealize.ShloMosaic.Lib.ValueIdx
import Idealize.ShloMosaic.PureOps.Ideal.Laws

noncomputable section

namespace Cert.PreRows

open Idealize.ShloMosaic Idealize.ShloMosaic.ValueIdx Cert.Pre_finite_inputs Cert.Pre_finite_inputs.Facts

variable [hF : Cert.Pre_finite_inputs.Facts]

instance : Subsingleton S_.Idx := ⟨fun a b => funext fun d => d.elim0⟩

/-- A strict comparison of extended reals that answers one is the strict order. -/
theorem lt_of_cmp_olt (a b : EReal) (h : Ideal.cmp .olt a b = 1#1) : a < b := by
  unfold Ideal.cmp at h
  dsimp only at h
  by_contra hn
  rw [decide_eq_false hn] at h
  exact absurd h (by decide)

theorem lt_of_cmp_ogt (a b : EReal) (h : Ideal.cmp .ogt a b = 1#1) : b < a := by
  unfold Ideal.cmp at h
  dsimp only at h
  by_contra hn
  rw [decide_eq_false hn] at h
  exact absurd h (by decide)

/-- `|x| < +∞` on the extended reals says that `x` is a real number. -/
theorem real_of_abs_lt (x : Ideal .f32)
    (h : FloatOps.cmpf (F := Ideal) (φ := .f32) .olt (FloatOps.hostAbsf x) (FloatOps.ofBits .f32 0x7F800000#32) = 1#1) :
    (x : EReal) ≠ ⊥ ∧ (x : EReal) ≠ ⊤ := by
  have hinf : Ideal.ofBits .f32 0x7F800000#32 = ⊤ := by simp [Ideal.ofBits, Ideal.ieee]
  rw [Ideal.cmpf_def, Ideal.hostAbsf_def, Ideal.absf_def, Ideal.ofBits_def, hinf] at h
  have hlt := lt_of_cmp_olt _ _ h
  induction x using EReal.rec with
  | bot => simp at hlt
  | top => simp at hlt
  | coe r => exact ⟨EReal.coe_ne_bot r, EReal.coe_ne_top r⟩

/-- A row's sum of squares, as the host's sum prints it, compared above zero: the sum over the row's entries is positive. -/
theorem rowsum_pos (x : FVec Ideal S262144x256 .f32) (r : Fin 262144)
    (h : FloatOps.cmpf (F := Ideal) (φ := .f32) .ogt
      (Host.reduceAdd (mulf x x) (constant S_ .f32 0x00000000#32) reducesTo_S262144x256_S262144_d1 h_S_ (ix1 r))
      (FloatOps.ofBits .f32 0x00000000#32) = 1#1) :
    (0 : EReal) < ∑ k : Fin 256, (x (ix2 r k) : EReal) * (x (ix2 r k) : EReal) := by
  rw [Ideal.cmpf_def] at h
  have h' := lt_of_cmp_ogt _ _ h
  simp only [Host.reduceAdd, Ideal.hostReduceAdd_def] at h'
  rw [Ideal.hostReduceAdd_single reducesTo_S262144x256_S262144_d1 (by decide)] at h'
  simp only [constant, Ideal.ofBits_def, Ideal.ofBits_zero_f32, zero_add] at h'
  refine lt_of_lt_of_eq h' (Finset.sum_congr rfl fun k _ => ?_)
  have e : (Shape.Reduces.lift (by decide : S262144x256.Reduces [1] S262144) (ix1 r) k) = ix2 r k :=
    funext fun a => Fin.ext (by match a with | ⟨0, _⟩ => rfl | ⟨1, _⟩ => rfl)
  show FloatOps.mulf (x _) (x _) = _
  rw [e]
  rfl

/-- The predicate's four conjuncts, each at an index. -/
theorem decode (x0 x1 : FVec Ideal S262144x256 .f32) (h : fn (F := Ideal) x0 x1 = fun _ => 1#1) :
    (∀ i, (x0 i : EReal) ≠ ⊥ ∧ (x0 i : EReal) ≠ ⊤) ∧ (∀ i, (x1 i : EReal) ≠ ⊥ ∧ (x1 i : EReal) ≠ ⊤)
    ∧ (∀ r : Fin 262144, (0 : EReal) < ∑ k : Fin 256, (x0 (ix2 r k) : EReal) * (x0 (ix2 r k) : EReal))
    ∧ (∀ r : Fin 262144, (0 : EReal) < ∑ k : Fin 256, (x1 (ix2 r k) : EReal) * (x1 (ix2 r k) : EReal)) := by
  have h0 := congrFun h ix0
  dsimp only [fn, fn_part1] at h0
  change IntOp.andi (IntOp.andi (IntOp.andi _ _) _) _ = 1#1 at h0
  obtain ⟨h123, h4⟩ := IntOp.andi_eq_one.mp h0
  obtain ⟨h12, h3⟩ := IntOp.andi_eq_one.mp h123
  obtain ⟨h1, h2⟩ := IntOp.andi_eq_one.mp h12
  refine ⟨fun i => ?_, fun i => ?_, fun r => ?_, fun r => ?_⟩
  · exact real_of_abs_lt _ (Host.reduce_andi_all _ _ _ _ _ h1 i)
  · exact real_of_abs_lt _ (Host.reduce_andi_all _ _ _ _ _ h2 i)
  · exact rowsum_pos x0 r (Host.reduce_andi_all _ _ _ _ _ h3 (ix1 r))
  · exact rowsum_pos x1 r (Host.reduce_andi_all _ _ _ _ _ h4 (ix1 r))

end Cert.PreRows

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.RowLaw.lean ====
/-
  One row of the cosine similarity, on the extended reals.

  For a row `q` and a row `d` (finite index type `ι`), write `P = ∑ q k * d k`, `Q = ∑ q k * q k`, `D = ∑ d k * d k`.
  The kernel computes `P * rsqrt (Q * D)` (`cosK`); the reference normalises each row first and then sums,
  `∑ (q k / √Q) * (d k / √D)` (`cosR`). When every entry is a real number and both `Q` and `D` are positive, all
  of this is arithmetic of real numbers: `√(Q * D) = √Q * √D`, a quotient by a nonzero real is the product with
  its reciprocal, and the common factor `(√Q)⁻¹ * (√D)⁻¹` comes out of the sum. That is `cosR_eq_cosK`.
  Without positivity the two differ (at a zero row the reference's quotient `0 / 0` is the junk value `⊥`, while
  the kernel's `0 * rsqrt 0 = 0 * ⊤ = 0`), which is why the hypothesis is there.
-/
import Idealize.ShloMosaic.PureOps.Ideal
import Idealize.ShloMosaic.PureOps.Ideal.Laws

noncomputable section

namespace Cert.CosineRow

open Idealize.ShloMosaic

variable {ι : Type} [Fintype ι]

/-- The coercion of a finite sum of reals is the sum of the coercions. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The kernel's form: the row product times the reciprocal root of the product of the two sums of squares. -/
def cosK (q d : ι → EReal) : EReal :=
  (∑ k, q k * d k) * Ideal.rsqrt ((∑ k, q k * q k) * (∑ k, d k * d k))

/-- The reference's form: each row divided by its norm, then the row product. -/
def cosR (q d : ι → EReal) : EReal :=
  ∑ k, Ideal.div (q k) (Ideal.sqrt (∑ j, q j * q j)) * Ideal.div (d k) (Ideal.sqrt (∑ j, d j * d j))

/-- On real rows with positive sums of squares the two forms are one real number. -/
theorem cosR_eq_cosK (q d : ι → EReal) (hq : ∀ k, q k ≠ ⊥ ∧ q k ≠ ⊤) (hd : ∀ k, d k ≠ ⊥ ∧ d k ≠ ⊤)
    (hq2 : 0 < ∑ k, q k * q k) (hd2 : 0 < ∑ k, d k * d k) : cosR q d = cosK q d := by
  have hq' : ∀ k, ∃ r : ℝ, q k = (r : EReal) := fun k => ⟨(q k).toReal, (EReal.coe_toReal (hq k).2 (hq k).1).symm⟩
  have hd' : ∀ k, ∃ r : ℝ, d k = (r : EReal) := fun k => ⟨(d k).toReal, (EReal.coe_toReal (hd k).2 (hd k).1).symm⟩
  choose q' hq' using hq'
  choose d' hd' using hd'
  obtain rfl : q = fun k => (q' k : EReal) := funext hq'
  obtain rfl : d = fun k => (d' k : EReal) := funext hd'
  have eQ : (∑ k, (q' k : EReal) * (q' k : EReal)) = ((∑ k, q' k * q' k : ℝ) : EReal) := by
    rw [coe_sum]; exact Finset.sum_congr rfl fun k _ => (EReal.coe_mul _ _).symm
  have eD : (∑ k, (d' k : EReal) * (d' k : EReal)) = ((∑ k, d' k * d' k : ℝ) : EReal) := by
    rw [coe_sum]; exact Finset.sum_congr rfl fun k _ => (EReal.coe_mul _ _).symm
  have eP : (∑ k, (q' k : EReal) * (d' k : EReal)) = ((∑ k, q' k * d' k : ℝ) : EReal) := by
    rw [coe_sum]; exact Finset.sum_congr rfl fun k _ => (EReal.coe_mul _ _).symm
  unfold cosR cosK
  dsimp only
  rw [eQ] at hq2 ⊢
  rw [eD] at hd2 ⊢
  rw [eP]
  have hQ : 0 < ∑ k, q' k * q' k := EReal.coe_pos.mp hq2
  have hD : 0 < ∑ k, d' k * d' k := EReal.coe_pos.mp hd2
  set Q : ℝ := ∑ k, q' k * q' k with hQdef
  set D : ℝ := ∑ k, d' k * d' k with hDdef
  have hsQ : Real.sqrt Q ≠ 0 := (Real.sqrt_pos.mpr hQ).ne'
  have hsD : Real.sqrt D ≠ 0 := (Real.sqrt_pos.mpr hD).ne'
  have hQD : 0 < Q * D := mul_pos hQ hD
  rw [Ideal.sqrt_coe, if_neg (not_lt.mpr hQ.le), Ideal.sqrt_coe, if_neg (not_lt.mpr hD.le), ← EReal.coe_mul,
    Ideal.rsqrt_coe, if_neg (not_lt.mpr hQD.le), if_neg hQD.ne', ← EReal.coe_mul]
  have step : ∀ k, Ideal.div (q' k : EReal) ((Real.sqrt Q : ℝ) : EReal) * Ideal.div (d' k : EReal) ((Real.sqrt D : ℝ) : EReal)
      = ((q' k * (1 / Real.sqrt Q) * (d' k * (1 / Real.sqrt D)) : ℝ) : EReal) := fun k => by
    rw [Ideal.div_coe hsQ, Ideal.div_coe hsD, ← EReal.coe_mul, ← EReal.coe_mul, ← EReal.coe_mul]
  rw [Finset.sum_congr rfl fun k _ => step k, ← coe_sum]
  refine congrArg _ ?_
  rw [Real.sqrt_mul hQ.le, mul_inv, Finset.sum_mul]
  refine Finset.sum_congr rfl fun k _ => ?_
  rw [one_div, one_div]
  ring

end Cert.CosineRow

end
-- ==== Proof.Payload.lean ====
/-
  What the kernel body stores, read at an entry.

  The body loads a block of 4096 rows of each input, takes per row the three sums over the 256 columns (the two sums
  of squares and the product sum), multiplies the product sum by the reciprocal root of the product of the other two,
  and lays the 4096 row values out as a 32 x 128 block in row-major order: entry (a, b) of that block is row
  128 a + b's value. So entry (a, b) of what is stored is the cosine, in the kernel's form, of row 128 a + b of the
  two loaded blocks.
-/
import proofs.«106091_j26946624815703_2_alg».proof.Proof.Gen.KernelIdeal.Skeleton
import proofs.«106091_j26946624815703_2_alg».proof.Proof.LibKeepdims
import proofs.«106091_j26946624815703_2_alg».proof.Proof.RowLaw
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen Cert.CosineRow

/-- A sum over the columns, read at a row: the sum over the 256 entries of that row. -/
theorem rowsum_apply (v : FVec Ideal S4096x256 .f32) (hφ : FKind.Formats .f32)
    (hacc : (0x00000000#32 : BitVec 32) = FKind.add.neutral .f32 hφ) (r : Fin 4096) :
    multiReduction .add [1] S4096 v 0x00000000#32 reduces_S4096x256_S4096 hφ hacc (ix1 r) = ∑ k : Fin 256, v (ix2 r k) :=
  (Ideal.multiReduction_add_single v 0x00000000#32 reduces_S4096x256_S4096 hφ hacc (ix1 r)).trans
    (Finset.sum_congr rfl fun k _ => congrArg v (funext fun a => Fin.ext (by match a with | ⟨0, _⟩ => rfl | ⟨1, _⟩ => rfl)))

/-- The same sum after the cast of the 4096 row values to a column: at (r, 0) it is row r's sum. -/
theorem colsum_apply (v : FVec Ideal S4096x256 .f32) (hφ : FKind.Formats .f32)
    (hacc : (0x00000000#32 : BitVec 32) = FKind.add.neutral .f32 hφ) (r : Fin 4096) :
    shapeCast S4096x1 (multiReduction .add [1] S4096 v 0x00000000#32 reduces_S4096x256_S4096 hφ hacc) shapeCasts_S4096_S4096x1
      (ix2 r (0 : Fin 1)) = ∑ k : Fin 256, v (ix2 r k) :=
  (Cert.LibKeepdims.shapeCast_a_a1_apply _ _ r 0).trans (rowsum_apply v hφ hacc r)

/-- Entry (a, b) of the stored block is the cosine of row 128 a + b of the two loaded blocks. -/
theorem pay_apply (x0 x1 : Vec Ideal S4096x256 .f32) (a : Fin 32) (b : Fin 128) (r : Fin 4096)
    (hr : r.val = a.val * 128 + b.val) :
    k0_pay1 (F := Ideal) x0 x1 (ix2 a b) = cosK (fun k : Fin 256 => (x0 (ix2 r k) : EReal)) (fun k : Fin 256 => (x1 (ix2 r k) : EReal)) := by
  unfold k0_pay1
  dsimp only
  refine (shapeCast_apply _ _ (ix2 a b) (ix2 r (0 : Fin 1)) ?_).trans ?_
  · rw [Shape.rowMajor_val_two, Shape.rowMajor_val_two]
    show r.val * 1 + 0 = a.val * 128 + b.val
    omega
  · show FloatOps.mulf (shapeCast S4096x1 _ _ (ix2 r (0 : Fin 1)))
      (FloatOps.rsqrt (FloatOps.mulf (shapeCast S4096x1 _ _ (ix2 r (0 : Fin 1))) (shapeCast S4096x1 _ _ (ix2 r (0 : Fin 1))))) = _
    have eP := colsum_apply (mulf x0 x1) (.inl rfl) rfl r
    have eQ := colsum_apply (mulf x0 x0) (.inl rfl) rfl r
    have eD := colsum_apply (mulf x1 x1) (.inl rfl) rfl r
    exact congrArg₂ (fun p s : EReal => p * Ideal.rsqrt s) eP (congrArg₂ (fun u v : EReal => u * v) eQ eD)

end Cert.KernelIdeal.Payload

end
-- ==== Proof.Spec.lean ====
/-
  The result both programs end at, as one function of the two [262144, 256] inputs: entry (R, 0) of the [262144, 1]
  result is the cosine of the inputs' rows R, written in the kernel's form (the product sum times the reciprocal
  root of the product of the two sums of squares).
-/
import proofs.«106091_j26946624815703_2_alg».proof.Proof.RowLaw
import Idealize.ShloMosaic.Lib.ValueIdx

noncomputable section

namespace Cert.CosineRow

open Idealize.ShloMosaic Idealize.ShloMosaic.ValueIdx

/-- The cosine of row R of two [262144, 256] arrays, in the kernel's form. -/
def rowCos (a0 a1 : (⟨2, ![262144, 256]⟩ : Shape).Idx → EReal) (R : Fin 262144) : EReal :=
  cosK (fun k : Fin 256 => a0 (ix2 R k)) (fun k : Fin 256 => a1 (ix2 R k))

/-- The [262144, 1] result: row by row. -/
def resArr (a0 a1 : (⟨2, ![262144, 256]⟩ : Shape).Idx → EReal) : (⟨2, ![262144, 1]⟩ : Shape).Idx → EReal :=
  fun i => rowCos a0 a1 ⟨(i 0).val, (i 0).isLt⟩

end Cert.CosineRow

end
-- ==== Proof.KernelValue.lean ====
/-
  The kernel's output array after the run, as one function of the two inputs.

  The grid has 64 points. Point t loads rows 4096 t … 4096 t + 4095 of each input (all 256 columns) and writes back
  rows 32 t … 32 t + 31 of the [2048, 128] output (all 128 columns). Entry (a, b) of the block it writes is the cosine
  of the loaded blocks' row 128 a + b, that is, of the inputs' row 4096 t + 128 a + b = 128 (32 t + a) + b. So the
  block is the restriction of ONE function of the inputs: output entry (A, B) is the cosine of the inputs' row
  128 A + B. The 64 blocks tile the 2048 rows (row A lies in the block of point A / 32), so the output array ends
  holding that function.
-/
import proofs.«106091_j26946624815703_2_alg».proof.Proof.Gen.KernelIdeal.Frame
import proofs.«106091_j26946624815703_2_alg».proof.Proof.Payload
import proofs.«106091_j26946624815703_2_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Idealize.ShloMosaic.ValueIdx Cert.KernelIdeal Cert.KernelIdeal.Gen Cert.KernelIdeal.Payload Cert.CosineRow

variable (m : (ℓ : Loc nD τ sig) → Buf (Elt Ideal) ℓ) (ρ : Dev nD → PrngReg)

/-- The input row an entry of the [2048, 128] output speaks of: 128 A + B. -/
def rowOf (i : S2048x128.Idx) : Fin 262144 :=
  ⟨(i 0).val * 128 + (i 1).val, by
    have h0 : (i 0).val < 2048 := (i 0).isLt
    have h1 : (i 1).val < 128 := (i 1).isLt
    omega⟩

/-- The output array as a function of the inputs. -/
def outArr (a0 a1 : S262144x256.Idx → EReal) : S2048x128.Idx → EReal := fun i => rowCos a0 a1 (rowOf i)

theorem hz : (![0, 0] : Fin 2 → Nat) = fun _ => 0 := funext fun a => by fin_cases a <;> rfl

/-- The printed index maps over the grid: every window's block row is the point's number, its block column zero. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 63 :=
  (by decide +kernel : ∀ t : Fin grid0.N, _)

/-- Every block row of the output is some point's. -/
theorem idx_onto : ∀ q : Fin 64, ∃ t : Fin cfg0.N, win0_2.index t = ![q.val, 0] :=
  (by decide +kernel : ∀ q : Fin 64, ∃ t : Fin grid0.N, win0_2.index t = ![q.val, 0])

/-- Input window 0's block at point t, read at y, is the first input at the block's offset plus y. -/
theorem iblk0_apply (c : Dev nD) (t : Fin cfg0.N) (y : S4096x256.Idx) (i : S262144x256.Idx)
    (h0 : (i 0).val = win0_0.index t (0 : Fin 2) * 4096 + (y 0).val) (h1 : (i 1).val = win0_0.index t (1 : Fin 2) * 256 + (y 1).val) :
    (iblk m c 0 t : Vec Ideal S4096x256 .f32) y = (V m c main_arg0 : S262144x256.Idx → EReal) i := by
  unfold iblk
  rw [View.read_apply]
  show V m c main_arg0 _ = V m c main_arg0 _
  congr 1
  funext a
  apply Fin.ext
  match a with
  | ⟨0, _⟩ => show win0_0.index t (0 : Fin 2) * 4096 + 1 * (y 0).val = (i 0).val; omega
  | ⟨1, _⟩ => show win0_0.index t (1 : Fin 2) * 256 + 1 * (y 1).val = (i 1).val; omega

/-- Input window 1's block likewise, of the second input. -/
theorem iblk1_apply (c : Dev nD) (t : Fin cfg0.N) (y : S4096x256.Idx) (i : S262144x256.Idx)
    (h0 : (i 0).val = win0_1.index t (0 : Fin 2) * 4096 + (y 0).val) (h1 : (i 1).val = win0_1.index t (1 : Fin 2) * 256 + (y 1).val) :
    (iblk m c 1 t : Vec Ideal S4096x256 .f32) y = (V m c main_arg1 : S262144x256.Idx → EReal) i := by
  unfold iblk
  rw [View.read_apply]
  show V m c main_arg1 _ = V m c main_arg1 _
  congr 1
  funext a
  apply Fin.ext
  match a with
  | ⟨0, _⟩ => show win0_1.index t (0 : Fin 2) * 4096 + 1 * (y 0).val = (i 0).val; omega
  | ⟨1, _⟩ => show win0_1.index t (1 : Fin 2) * 256 + 1 * (y 1).val = (i 1).val; omega

/-- What point t writes back is block t of `outArr` of the inputs as the region finds them. -/
theorem flushed_eq (c : Dev nD) (t : Fin cfg0.N) :
    (dats m 0 c).flushed 2 t = ((cfg0.win 2).blk t).view.read (Elt Ideal) (outArr (V m c main_arg0) (V m c main_arg1)) := by
  show (cfg0.win 2).cut (grid0.coords t) ((dats m 0 c).after 2 t) = _
  rw [after0_2]
  unfold out0_2
  rw [View.canon_unit_zero hz]
  simp only [View.ld_unit_zero (S := S4096x256) hz]
  obtain ⟨e0, e1, e2, e3, e4, e5⟩ := idx_facts t
  funext j
  have hj0 : (j 0).val < 32 := (j 0).isLt
  have hj1 : (j 1).val < 128 := (j 1).isLt
  have hj : (j : S32x128.Idx) = ix2 (⟨(j 0).val, hj0⟩ : Fin 32) (⟨(j 1).val, hj1⟩ : Fin 128) :=
    funext fun d => Fin.ext (by match d with | ⟨0, _⟩ => rfl | ⟨1, _⟩ => rfl)
  have E0 : ((((cfg0.win 2).blk t).view.emb j) 0).val = win0_2.index t (0 : Fin 2) * 32 + 1 * (j 0).val := rfl
  have E1 : ((((cfg0.win 2).blk t).view.emb j) 1).val = win0_2.index t (1 : Fin 2) * 128 + 1 * (j 1).val := rfl
  show k0_pay1 (F := Ideal) (iblk m c 0 t) (iblk m c 1 t) j = outArr (V m c main_arg0) (V m c main_arg1) (((cfg0.win 2).blk t).view.emb j)
  refine (congrArg (k0_pay1 (F := Ideal) (iblk m c 0 t) (iblk m c 1 t)) hj).trans ?_
  refine (pay_apply (iblk m c 0 t) (iblk m c 1 t) ⟨(j 0).val, hj0⟩ ⟨(j 1).val, hj1⟩ ⟨(j 0).val * 128 + (j 1).val, by omega⟩ rfl).trans ?_
  unfold outArr rowCos
  refine congrArg₂ cosK (funext fun k => ?_) (funext fun k => ?_)
  · refine iblk0_apply m c t _ _ ?_ ?_
    · show (rowOf (((cfg0.win 2).blk t).view.emb j)).val = win0_0.index t (0 : Fin 2) * 4096 + ((j 0).val * 128 + (j 1).val)
      unfold rowOf
      show ((((cfg0.win 2).blk t).view.emb j) 0).val * 128 + ((((cfg0.win 2).blk t).view.emb j) 1).val = _
      rw [E0, E1]; omega
    · show k.val = win0_0.index t (1 : Fin 2) * 256 + k.val
      omega
  · refine iblk1_apply m c t _ _ ?_ ?_
    · show (rowOf (((cfg0.win 2).blk t).view.emb j)).val = win0_1.index t (0 : Fin 2) * 4096 + ((j 0).val * 128 + (j 1).val)
      unfold rowOf
      show ((((cfg0.win 2).blk t).view.emb j) 0).val * 128 + ((((cfg0.win 2).blk t).view.emb j) 1).val = _
      rw [E0, E1]; omega
    · show k.val = win0_1.index t (1 : Fin 2) * 256 + k.val
      omega

/-- An index of the output is in point t's block iff each coordinate is in the block's range on its axis. -/
theorem mem_blk (t : Fin cfg0.N) (i : S2048x128.Idx) :
    i ∈ ((cfg0.win 2).blk t).view.set ↔ ∀ a : Fin 2, win0_2.index t a * S32x128.size a ≤ (i a).val ∧ (i a).val < win0_2.index t a * S32x128.size a + S32x128.size a := by
  show i ∈ ((View.whole main_v0).slice (win0_2.rect t)).set ↔ _
  rw [View.set_slice_whole, Rect.mem_set_unit]
  exact Iff.rfl

/-- Every entry of the output lies in the block of the point its row selects. -/
theorem cover (i : S2048x128.Idx) : ∃ t : Fin cfg0.N, (cfg0.win 2).flush t = true ∧ i ∈ ((cfg0.win 2).blk t).view.set := by
  have hi0 : (i 0).val < 2048 := (i 0).isLt
  have hi1 : (i 1).val < 128 := (i 1).isLt
  obtain ⟨t, ht⟩ := idx_onto ⟨(i 0).val / 32, by omega⟩
  have q0 : win0_2.index t (0 : Fin 2) = (i 0).val / 32 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 128 ≤ (i 1).val ∧ (i 1).val < win0_2.index t (1 : Fin 2) * 128 + 128; omega

/-- The output array after the run. -/
theorem final_out (c : Dev nD) : (dats m 0 c).arrAt 2 cfg0.N = outArr (V m c main_arg0) (V m c main_arg1) :=
  (dats m 0 c).arrAt_eq_of_cover 2 (outArr (V m c main_arg0) (V m c main_arg1)) (fun t _ => flushed_eq m c t) cover

end Cert.KernelIdeal.Hand

end
-- ==== Proof.KernelRun.lean ====
/-
  The kernel program's run, read: after the region the host reshapes the [2048, 128] output to [262144, 1] in
  row-major order, so result entry (R, 0) is output entry (R / 128, R % 128), which speaks of the inputs' row
  128 (R / 128) + R % 128 = R. The result is the cosine of the inputs' rows, row by row.
-/
import proofs.«106091_j26946624815703_2_alg».proof.Proof.KernelValue

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Idealize.ShloMosaic.ValueIdx Cert.KernelIdeal Cert.KernelIdeal.Gen Cert.CosineRow

variable (m : (ℓ : Loc nD τ sig) → Buf (Elt Ideal) ℓ) (ρ : Dev nD → PrngReg)

/-- The row-major reshape of the output array to one column, read at an entry. -/
theorem reshape_apply (a0 a1 : S262144x256.Idx → EReal) (i : S262144x1.Idx) :
    shapeCast S262144x1 (outArr a0 a1) shapeCasts_S2048x128_S262144x1 i = resArr a0 a1 i := by
  have hi0 : (i 0).val < 262144 := (i 0).isLt
  have hi1 : (i 1).val < 1 := (i 1).isLt
  refine (shapeCast_apply _ _ i (ix2 (⟨(i 0).val / 128, by omega⟩ : Fin 2048) (⟨(i 0).val % 128, by omega⟩ : Fin 128)) ?_).trans ?_
  · rw [Shape.rowMajor_val_two, Shape.rowMajor_val_two]
    show (i 0).val / 128 * 128 + (i 0).val % 128 = (i 0).val * 1 + (i 1).val
    omega
  · unfold outArr resArr
    refine congrArg (rowCos a0 a1) (Fin.ext ?_)
    show (i 0).val / 128 * 128 + (i 0).val % 128 = (i 0).val
    omega

/-- The result buffer is no array of the region: an unscoped buffer the region leaves to the lines after it. -/
theorem main_v1_mem : main_v1 ∈ Pipeline.restRefs sig spec0 :=
  Pipeline.mem_restRefs_of main_v1 rfl (by decide)

/-- What the line after the region leaves in the result buffer. -/
theorem tail_eq (c : Dev nD) :
    Pipeline.afterTail₀ cfgs (dats m) 0 (V0 m) [hostOps1] c main_v1
      = resArr (m ((c.tc : Thread nD τ).loc main_arg0)) (m ((c.tc : Thread nD τ).loc main_arg1)) := by
  unfold Pipeline.afterTail₀
  show StableHlo.after hostOps1 _ (Proc.devRef .tc main_v1) = _
  after_results
  rw [show Pipeline.withArrays (cfgs 0).spec c (V0 m c) (fun w => (dats m 0 c).arrAt w (cfgs 0).N) (Proc.devRef .tc main_v0)
      = outArr (V m c main_arg0) (V m c main_arg1) from
    (Pipeline.withArrays_arr spec0 winFacts0.arr_inj c _ _ 2).trans (final_out m c)]
  funext i
  exact reshape_apply _ _ i

/-- The run: the result at the cosine of the inputs' rows, the inputs unchanged. -/
theorem run : θ_run defs (onTc (τ := τ) (main (F := Ideal))) ⟨m, fun _ => 0, ρ⟩ fun r => ∀ c : Dev nD,
      r.2.mem ((c.tc : Thread nD τ).loc main_v1) = resArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 main_v1_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.RefValue.lean ====
/-
  The reference's result, read at an entry: with the generated read-at-an-index lemmas chained, entry (R, 0) is zero
  plus the sum over the 256 columns k of (x0 (R, k) / √(0 + ∑ x0 (R, ·)²)) * (x1 (R, k) / √(0 + ∑ x1 (R, ·)²)) — the
  reference's form of the row's cosine. On inputs whose entries are real numbers and whose rows have positive sums
  of squares that is the kernel's form (the row law), so the reference's result is the same array as the kernel's.
-/
import proofs.«106091_j26946624815703_2_alg».proof.Proof.Gen.ReferenceIdeal.Read
import proofs.«106091_j26946624815703_2_alg».proof.Proof.Spec

noncomputable section

namespace Cert.ReferenceIdeal.Hand

open Idealize.ShloMosaic Idealize.ShloMosaic.ValueIdx Cert.ReferenceIdeal Cert.ReferenceIdeal.Gen Cert.ReferenceIdeal.Read Cert.CosineRow

/-- The reference's last stage is the shared result, on real inputs with nonzero rows. -/
theorem ref_eq (x0 x1 : (⟨S262144x256, .f32⟩ : BufTy).Contents (Elt Ideal))
    (h0 : ∀ i, (x0 i : EReal) ≠ ⊥ ∧ (x0 i : EReal) ≠ ⊤) (h1 : ∀ i, (x1 i : EReal) ≠ ⊥ ∧ (x1 i : EReal) ≠ ⊤)
    (p0 : ∀ r : Fin 262144, (0 : EReal) < ∑ k : Fin 256, (x0 (ix2 r k) : EReal) * (x0 (ix2 r k) : EReal))
    (p1 : ∀ r : Fin 262144, (0 : EReal) < ∑ k : Fin 256, (x1 (ix2 r k) : EReal) * (x1 (ix2 r k) : EReal)) :
    val_main_v8 (F := Ideal) x0 x1 = resArr x0 x1 := by
  funext i
  have key : ∀ k : Fin 256, val_main_v6 (F := Ideal) x0 x1 (idx_main_v7 (idx_main_v8 i) k)
      = Ideal.div (x0 (ix2 ⟨(i 0).val, (i 0).isLt⟩ k)) (Ideal.sqrt (∑ j : Fin 256, (x0 (ix2 ⟨(i 0).val, (i 0).isLt⟩ j) : EReal) * x0 (ix2 ⟨(i 0).val, (i 0).isLt⟩ j)))
        * Ideal.div (x1 (ix2 ⟨(i 0).val, (i 0).isLt⟩ k)) (Ideal.sqrt (∑ j : Fin 256, (x1 (ix2 ⟨(i 0).val, (i 0).isLt⟩ j) : EReal) * x1 (ix2 ⟨(i 0).val, (i 0).isLt⟩ j))) := fun k => by
    have eI : idx_main_v7 (idx_main_v8 i) k = ix2 (⟨(i 0).val, (i 0).isLt⟩ : Fin 262144) k :=
      funext fun a => Fin.ext (by match a with | ⟨0, _⟩ => rfl | ⟨1, _⟩ => rfl)
    have e0 : ∀ j : Fin 256, idx_main_call0_v1 (idx_main_call0_v2 (idx_main_v2 (ix2 (⟨(i 0).val, (i 0).isLt⟩ : Fin 262144) k))) j
        = ix2 (⟨(i 0).val, (i 0).isLt⟩ : Fin 262144) j := fun j =>
      funext fun a => Fin.ext (by match a with | ⟨0, _⟩ => rfl | ⟨1, _⟩ => rfl)
    have e1 : ∀ j : Fin 256, idx_main_call1_v1 (idx_main_call1_v2 (idx_main_v4 (ix2 (⟨(i 0).val, (i 0).isLt⟩ : Fin 262144) k))) j
        = ix2 (⟨(i 0).val, (i 0).isLt⟩ : Fin 262144) j := fun j =>
      funext fun a => Fin.ext (by match a with | ⟨0, _⟩ => rfl | ⟨1, _⟩ => rfl)
    rw [eI, val_main_v6_apply, val_main_v3_apply, val_main_v5_apply, val_main_v2_apply, val_main_v4_apply,
      val_main_v0_apply, val_main_v1_apply, val_main_call0_v2_apply, val_main_call1_v2_apply,
      val_main_call0_v1_apply, val_main_call1_v1_apply]
    simp only [val_main_call0_v0_apply, val_main_call1_v0_apply, val_main_call0_cst_apply, val_main_call1_cst_apply,
      Ideal.mulf_def, Ideal.hostDivf_def, Ideal.hostUnary_sqrt_def, Ideal.ofBits_def, Ideal.ofBits_zero_f32, zero_add, e0, e1]
  rw [val_main_v8_apply, val_main_v7_apply, Finset.sum_congr rfl fun k _ => key k]
  simp only [val_main_cst_apply, Ideal.ofBits_def, Ideal.ofBits_zero_f32, zero_add]
  exact cosR_eq_cosK _ _ (fun k => h0 _) (fun k => h1 _) (p0 _) (p1 _)

end Cert.ReferenceIdeal.Hand

end
-- ==== Proof.lean ====
/-
  Row-wise cosine similarity of two [262144, 256] arrays, result [262144, 1].

  The kernel takes, per row, the product sum P = ∑ q·d and the two sums of squares Q = ∑ q², D = ∑ d², and returns
  P · rsqrt (Q · D); it works on blocks of 4096 rows, lays each block's 4096 values out as a [32, 128] tile of a
  [2048, 128] array, and the host reshapes that array to one column. The reference divides each row by its norm
  √Q, resp. √D, and then sums the products of the normalised entries.

  On the extended reals the two agree on every row whose entries are real numbers and whose sums of squares are
  positive: then everything is real arithmetic, √(Q·D) = √Q·√D, a quotient by a nonzero real is the product with
  its reciprocal, and the common factor leaves the sum (Proof/RowLaw.lean). At a zero row they do not agree (the
  reference's 0 / 0 against the kernel's 0 · rsqrt 0), so the precondition asks, beside finiteness, that every row of
  either input has a positive sum of squares; Proof/PreRows.lean reads both facts back from the printed predicate.

  The kernel's side: what the body stores, at an entry (Proof/Payload.lean); each point's block as the restriction
  of one function of the inputs, and the output array after the run (Proof/KernelValue.lean); the reshape after the
  region and the run (Proof/KernelRun.lean). The reference's side: its generated run and read-at-an-index lemmas,
  chained (Proof/RefValue.lean). Both end at `Cert.CosineRow.resArr` of the inputs (Proof/Spec.lean).
  The two kernel frames are the generated ones; the reference's frame is its generated run with the result dropped;
  the idealization changed no operation, so there is nothing to preserve.
-/
import proofs.«106091_j26946624815703_2_alg».proof.Defs
import proofs.«106091_j26946624815703_2_alg».proof.Proof.Gen.Kernel
import proofs.«106091_j26946624815703_2_alg».proof.Proof.Gen.Kernel.Skeleton
import proofs.«106091_j26946624815703_2_alg».proof.Proof.Gen.Kernel.Launch
import proofs.«106091_j26946624815703_2_alg».proof.Proof.Gen.Kernel.Points
import proofs.«106091_j26946624815703_2_alg».proof.Proof.Gen.Kernel.Frame
import proofs.«106091_j26946624815703_2_alg».proof.Proof.Gen.KernelIdeal
import proofs.«106091_j26946624815703_2_alg».proof.Proof.Gen.KernelIdeal.Skeleton
import proofs.«106091_j26946624815703_2_alg».proof.Proof.Gen.KernelIdeal.Launch
import proofs.«106091_j26946624815703_2_alg».proof.Proof.Gen.KernelIdeal.Points
import proofs.«106091_j26946624815703_2_alg».proof.Proof.Gen.KernelIdeal.Frame
import proofs.«106091_j26946624815703_2_alg».proof.Proof.Gen.ReferenceIdeal
import proofs.«106091_j26946624815703_2_alg».proof.Proof.Gen.ReferenceIdeal.Read
import proofs.«106091_j26946624815703_2_alg».proof.Proof.Gen.Pre_finite_inputs
import proofs.«106091_j26946624815703_2_alg».proof.Proof.PreRows
import proofs.«106091_j26946624815703_2_alg».proof.Proof.KernelRun
import proofs.«106091_j26946624815703_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the row-wise cosine of the inputs: the kernel by its run, the reference by its run and the
    row law, whose hypotheses are the precondition read back. -/
theorem algebraic : Cert.algebraic_KernelIdeal_ReferenceIdeal := by
  intro m ρ m' ρ' hpre hagree
  refine ⟨fun c => Cert.CosineRow.resArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨?_, (h c).2⟩)
    (Cert.ReferenceIdeal.Value.run (F := Ideal) m' ρ')
  obtain ⟨f0, f1, p0, p1⟩ := Cert.PreRows.decode _ _ (hpre c)
  rw [(h c).1, Cert.ReferenceIdeal.Read.val_main_v8_eq, (hagree c).1, (hagree c).2]
  exact Cert.ReferenceIdeal.Hand.ref_eq _ _ f0 f1 p0 p1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
